-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg6 : FVec F S128x47 .f32) (main_arg7 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x47 .f32 := Host.absf main_arg6
  let main_cst_6 : FVec F S_ .f32 := constant S_ .f32 0x7F800000#32
  let main_v20 : FVec F S128x47 .f32 := broadcastInDim S128x47 ![] bcast_S_S128x47 main_cst_6
  let main_v21 : IVec S128x47 1 := cmpf .olt main_v19 main_v20
  let main_c_7 : IVec S_ 1 := constantI S_ 1 1#1
  let main_v22 : IVec S_ 1 := (fun x v => Host.reduce IntOp.andi x v reducesTo_S128x47_S_d0_1 h_S_) main_v21 main_c_7
  let main_v23 : IVec S_ 1 := andi main_v18 main_v22
  let main_v24 : FVec F S47 .f32 := Host.absf main_arg7
  let main_cst_8 : FVec F S_ .f32 := constant S_ .f32 0x7F800000#32
  let main_v25 : FVec F S47 .f32 := broadcastInDim S47 ![] bcast_S_S47 main_cst_8
  let main_v26 : IVec S47 1 := cmpf .olt main_v24 main_v25
  let main_c_9 : IVec S_ 1 := constantI S_ 1 1#1
  let main_v27 : IVec S_ 1 := (fun x v => Host.reduce IntOp.andi x v reducesTo_S47_S_d0 h_S_) main_v26 main_c_9
  let main_v28 : IVec S_ 1 := andi main_v23 main_v27
  main_v28

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S128x47 .f32) (main_arg7 : FVec F S47 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x47 : Shape := ⟨2, ![128, 47]⟩
abbrev S47 : Shape := ⟨1, ![47]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x47 : Shape := ⟨2, ![100000, 47]⟩
abbrev S5000x47 : Shape := ⟨2, ![5000, 47]⟩
abbrev S1600000x47 : Shape := ⟨2, ![1600000, 47]⟩
abbrev S1x47 : Shape := ⟨2, ![1, 47]⟩
abbrev S5000 : Shape := ⟨1, ![5000]⟩
abbrev S5000x1 : Shape := ⟨2, ![5000, 1]⟩

abbrev nBuf : Space → Nat
  | .hbm => 45
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x47, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x47, .f32⟩
  | .hbm, ⟨37, _⟩ => ⟨S1600000x47, .f32⟩
  | .hbm, ⟨38, _⟩ => ⟨S1600000x47, .f32⟩
  | .hbm, ⟨39, _⟩ => ⟨S_, .f32⟩
  | .hbm, ⟨40, _⟩ => ⟨S100000x47, .f32⟩
  | .hbm, ⟨41, _⟩ => ⟨S1600000x1, .i32⟩
  | .hbm, ⟨42, _⟩ => ⟨S100000x47, .f32⟩
  | .hbm, ⟨43, _⟩ => ⟨S1x47, .f32⟩
  | .hbm, ⟨44, _⟩ => ⟨S100000x47, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x47, .f32⟩
  | .local _ .vmem, ⟨9, _⟩ => ⟨S5000x47, .f32⟩
  | .local _ .vmem, ⟨10, _⟩ => ⟨S5000x47, .f32⟩
  | .local _ .vmem, ⟨11, _⟩ => ⟨S5000x47, .f32⟩
  | .local _ .vmem, ⟨12, _⟩ => ⟨S5000x47, .f32⟩
  | .local _ .vmem, ⟨13, _⟩ => ⟨S1x47, .f32⟩
  | .local _ .vmem, ⟨14, _⟩ => ⟨S5000x47, .f32⟩
  | .local _ .vmem, ⟨15, _⟩ => ⟨S5000x47, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x47 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x47 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S5000x47_S5000x47_0_0 : ∀ a, (![0, 0] : Fin 2 → Nat) a + S5000x47.size a ≤ S5000x47.size a
  h_S5000x47 : 0 < S5000x47.numel
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  shapeCasts_S47_S1x47 : S47.ShapeCasts S1x47
  shapeCasts_S5000x47_S5000x47 : S5000x47.ShapeCasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x47_S5000x47_1_0_0_1_n_n_wf : DotDims.WF S5000x128 S128x47 S5000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x47.size a ≤ S128x47.size a
  hwx1_2 : ∀ i : grid1.Coords, EltTy.bits .f32 = 32 ∨ (Rect.block (s := S128x47) S128x47.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x47.size a ≤ S100000x47.size a
  hwx1_3 : ∀ i : grid1.Coords, EltTy.bits .f32 = 32 ∨ (Rect.block (s := S100000x47) S5000x47.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x47.size a ≤ S100000x47.size a
  hwx2_0 : ∀ i : grid2.Coords, EltTy.bits .f32 = 32 ∨ (Rect.block (s := S100000x47) S5000x47.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x47.size a ≤ S1x47.size a
  hwx2_1 : ∀ i : grid2.Coords, EltTy.bits .f32 = 32 ∨ (Rect.block (s := S1x47) S1x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x47.size a ≤ S100000x47.size a
  hwx2_2 : ∀ i : grid2.Coords, EltTy.bits .f32 = 32 ∨ (Rect.block (s := S100000x47) S5000x47.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x47.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x47.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x47 : Shape := ⟨2, ![128, 47]⟩
abbrev S47 : Shape := ⟨1, ![47]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x47 : Shape := ⟨2, ![100000, 47]⟩
abbrev S1600000x47 : Shape := ⟨2, ![1600000, 47]⟩
abbrev S1x47 : Shape := ⟨2, ![1, 47]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x47, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x47, .f32⟩
  | .hbm, ⟨42, _⟩ => ⟨S1600000x47, .f32⟩
  | .hbm, ⟨43, _⟩ => ⟨S1600000x47, .f32⟩
  | .hbm, ⟨44, _⟩ => ⟨S_, .f32⟩
  | .hbm, ⟨45, _⟩ => ⟨S100000x47, .f32⟩
  | .hbm, ⟨46, _⟩ => ⟨S1600000x1, .i32⟩
  | .hbm, ⟨47, _⟩ => ⟨S100000x47, .f32⟩
  | .hbm, ⟨48, _⟩ => ⟨S1x47, .f32⟩
  | .hbm, ⟨49, _⟩ => ⟨S100000x47, .f32⟩
  | .hbm, ⟨50, _⟩ => ⟨S100000x47, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x47, .f32⟩
  | .hbm, ⟨58, _⟩ => ⟨S100000x47, .f32⟩
  | .hbm, ⟨59, _⟩ => ⟨S100000x47, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x47, .f32⟩
  | .hbm, ⟨65, _⟩ => ⟨S100000x47, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x47_0_1 : S100000x1.BroadcastsInDim S100000x47 (![0, 1] : Fin 2 → Fin S100000x47.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x47_S100000x47_1_0_0_1_n_n_wf : DotDims.WF S100000x128 S128x47 S100000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

class Facts : Prop extends Facts₀ where

variable [Facts]
-- ==== Proof.RefOps.lean ====
/-
  The reference's @main as a list of host operations, cut into five stretches, and its layers as functions of arrays.

  The reference is a straight line of 58 host operations: a product of the features with the first weights; the sparse
  aggregation (a gather of rows by the wrapped column indices, scaled by the edge values, scatter-added by the row indices
  into zeros); the first bias and a maximum with zero; a product with the second weights; the same aggregation; the
  second bias; and the logarithm of the softmax along the rows.  `result` is the returned array as one function of the
  eight argument arrays, composed of one function per layer.
-/
import proofs.«112370_j36687610642609_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The layers as functions of arrays -/

/-- The sparse aggregation of a [100000, 128] array: row `col e` (wrapped when negative), scaled by `val e`, added
    into row `row e` of zeros, over the edges `e`. -/
def spmm128 (h : (⟨S100000x128, .f32⟩ : BufTy).Contents (Elt F)) (row col : (⟨S1600000, .i32⟩ : BufTy).Contents (Elt F)) (val : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same aggregation of a [100000, 47] array. -/
def spmm47 (h : (⟨S100000x47, .f32⟩ : BufTy).Contents (Elt F)) (row col : (⟨S1600000, .i32⟩ : BufTy).Contents (Elt F)) (val : (⟨S1600000, .f32⟩ : BufTy).Contents (Elt F)) : (⟨S100000x47, .f32⟩ : BufTy).Contents (Elt F) :=
  Host.scatterAdd scatter_S100000x47_S1600000x1_S1600000x47_1_0_0_1
    (broadcastInDim S100000x47 ![] bcast_S_S100000x47 (constant S_ .f32 0x00000000#32))
    (broadcastInDim S1600000x1 ![0] bcast_S1600000_S1600000x1_0 row)
    (mulf (broadcastInDim S1600000x47 ![0, 1] bcast_S1600000x1_S1600000x47_0_1 (broadcastInDim S1600000x1 ![0] bcast_S1600000_S1600000x1_0 val))
      (Host.gather gather_S100000x47_S1600000x1_S1600000x47_1_0_n_n_0_1_147 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The first layer before its ReLU: the aggregated product plus the bias. -/
def layer1 (x : (⟨S100000x256, .f32⟩ : BufTy).Contents (Elt F)) (row col : (⟨S1600000, .i32⟩ : BufTy).Contents (Elt F)) (val : (⟨S1600000, .f32⟩ : BufTy).Contents (Elt F)) (w1 : (⟨S256x128, .f32⟩ : BufTy).Contents (Elt F)) (b1 : (⟨S128, .f32⟩ : BufTy).Contents (Elt F)) : (⟨S100000x128, .f32⟩ : BufTy).Contents (Elt F) :=
  addf (spmm128 (Host.dotGeneral dot_S100000x256_S256x128_S100000x128_1_0_0_1_n_n none x w1) row col val)
    (broadcastInDim S100000x128 ![0, 1] bcast_S1x128_S100000x128_0_1 (broadcastInDim S1x128 ![1] bcast_S128_S1x128_1 b1))

/-- The ReLU: the maximum with a zero array. -/
def rectified (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- The second layer before its softmax: the aggregated product of the hidden array plus the bias. -/
def layer2 (hdn : (⟨S100000x128, .f32⟩ : BufTy).Contents (Elt F)) (row col : (⟨S1600000, .i32⟩ : BufTy).Contents (Elt F)) (val : (⟨S1600000, .f32⟩ : BufTy).Contents (Elt F)) (w2 : (⟨S128x47, .f32⟩ : BufTy).Contents (Elt F)) (b2 : (⟨S47, .f32⟩ : BufTy).Contents (Elt F)) : (⟨S100000x47, .f32⟩ : BufTy).Contents (Elt F) :=
  addf (spmm47 (Host.dotGeneral dot_S100000x128_S128x47_S100000x47_1_0_0_1_n_n none hdn w2) row col val)
    (broadcastInDim S100000x47 ![0, 1] bcast_S1x47_S100000x47_0_1 (broadcastInDim S1x47 ![1] bcast_S47_S1x47_1 b2))

/-- A row's largest entry as a column broadcast along the rows, as the host spells it. -/
def rowMaxHost (x : (⟨S100000x47, .f32⟩ : BufTy).Contents (Elt F)) : (⟨S100000x47, .f32⟩ : BufTy).Contents (Elt F) :=
  broadcastInDim S100000x47 ![0, 1] bcast_S100000x1_S100000x47_0_1 (broadcastInDim S100000x1 ![0] bcast_S100000_S100000x1_0
    (maximumf (broadcastInDim S100000 ![] bcast_S_S100000 (constant S_ .f32 0xFF800000#32))
      (Host.reduce FloatOps.maximumf x (constant S_ .f32 0xFF800000#32) reducesTo_S100000x47_S100000_d1 h_S_)))

/-- The logarithm of the softmax along the rows, as the host spells it. -/
def logSoftmaxHost (x : (⟨S100000x47, .f32⟩ : BufTy).Contents (Elt F)) : (⟨S100000x47, .f32⟩ : BufTy).Contents (Elt F) :=
  subf (subf x (rowMaxHost x))
    (broadcastInDim S100000x47 ![0, 1] bcast_S100000x1_S100000x47_0_1 (Host.log (broadcastInDim S100000x1 ![0] bcast_S100000_S100000x1_0
      (Host.reduceAdd (Host.exp (subf x (rowMaxHost x))) (constant S_ .f32 0x00000000#32) reducesTo_S100000x47_S100000_d1 h_S_))))

/-- The returned array as one function of the eight argument arrays. -/
def result (x : (⟨S100000x256, .f32⟩ : BufTy).Contents (Elt F)) (row col : (⟨S1600000, .i32⟩ : BufTy).Contents (Elt F)) (val : (⟨S1600000, .f32⟩ : BufTy).Contents (Elt F)) (w1 : (⟨S256x128, .f32⟩ : BufTy).Contents (Elt F)) (b1 : (⟨S128, .f32⟩ : BufTy).Contents (Elt F)) (w2 : (⟨S128x47, .f32⟩ : BufTy).Contents (Elt F)) (b2 : (⟨S47, .f32⟩ : BufTy).Contents (Elt F)) : (⟨S100000x47, .f32⟩ : BufTy).Contents (Elt F) :=
  logSoftmaxHost (layer2 (rectified (layer1 x row col val w1 b1)) row col val w2 b2)

/-! ## @main as five stretches of operations -/

/-- The first layer: the product, the aggregation, the bias (operations 1 to 20, down to `main_v16`). -/
abbrev opsA : List (HloOp τ sig (Elt F)) :=
  [ binary main_arg0 main_arg4 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg2 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg2 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg2 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)) ]

/-- The ReLU (@relu's three operations, down to `main_v17`). -/
abbrev opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v16) (TRef.of (T := ⟨S100000x128, .f32⟩) main_call0_v0) (TRef.of (T := ⟨S100000x128, .f32⟩) main_v17) maximumf ]

/-- The second layer: the product, the aggregation, the bias (operations 24 to 43, down to `main_v34`). -/
abbrev opsC : List (HloOp τ sig (Elt F)) :=
  [ binary main_v17 main_arg6 main_v18 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg3 main_v19 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_arg2 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_arg2 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg2 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v19 main_v27 (broadcastInDim S1600000x47 ![0, 1] bcast_S1600000x1_S1600000x47_0_1 : (⟨S1600000x1, .f32⟩ : BufTy).Contents (Elt F) → (⟨S1600000x47, .f32⟩ : BufTy).Contents (Elt F)),
    binary main_v27 main_v26 main_v28 (mulf : (⟨S1600000x47, .f32⟩ : BufTy).Contents (Elt F) → (⟨S1600000x47, .f32⟩ : BufTy).Contents (Elt F) → (⟨S1600000x47, .f32⟩ : BufTy).Contents (Elt F)),
    nullary main_cst_3 (constant S_ .f32 0x00000000#32),
    unary main_cst_3 main_v29 (broadcastInDim S100000x47 ![] bcast_S_S100000x47 : (⟨S_, .f32⟩ : BufTy).Contents (Elt F) → (⟨S100000x47, .f32⟩ : BufTy).Contents (Elt F)),
    unary main_arg1 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_arg7 main_v32 (broadcastInDim S1x47 ![1] bcast_S47_S1x47_1 : (⟨S47, .f32⟩ : BufTy).Contents (Elt F) → (⟨S1x47, .f32⟩ : BufTy).Contents (Elt F)),
    unary main_v32 main_v33 (broadcastInDim S100000x47 ![0, 1] bcast_S1x47_S100000x47_0_1 : (⟨S1x47, .f32⟩ : BufTy).Contents (Elt F) → (⟨S100000x47, .f32⟩ : BufTy).Contents (Elt F)),
    binary main_v31 main_v33 main_v34 (addf : (⟨S100000x47, .f32⟩ : BufTy).Contents (Elt F) → (⟨S100000x47, .f32⟩ : BufTy).Contents (Elt F) → (⟨S100000x47, .f32⟩ : BufTy).Contents (Elt F)) ]

/-- The log-softmax's first half: the rows' largest entries subtracted (@log_softmax's first eight operations, down to
    its `%5`). -/
abbrev opsD1 : List (HloOp τ sig (Elt F)) :=
  [ TRef.nullary (TRef.of (T := ⟨S_, .f32⟩) main_call1_cst) (constant S_ .f32 0xFF800000#32),
    TRef.binary (TRef.of (T := ⟨S100000x47, .f32⟩) main_v34) (TRef.of (T := ⟨S_, .f32⟩) main_call1_cst) (TRef.of (T := ⟨S100000, .f32⟩) main_call1_v0) (fun x v => Host.reduce FloatOps.maximumf x v reducesTo_S100000x47_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x47, .f32⟩) main_call1_v4) (broadcastInDim S100000x47 ![0, 1] bcast_S100000x1_S100000x47_0_1),
    TRef.binary (TRef.of (T := ⟨S100000x47, .f32⟩) main_v34) (TRef.of (T := ⟨S100000x47, .f32⟩) main_call1_v4) (TRef.of (T := ⟨S100000x47, .f32⟩) main_call1_v5) subf ]

/-- The log-softmax's second half: the logarithm of the rows' sums of exponentials subtracted (its last seven
    operations, down to `main_v35`). -/
abbrev opsD2 : List (HloOp τ sig (Elt F)) :=
  [ TRef.unary (TRef.of (T := ⟨S100000x47, .f32⟩) main_call1_v5) (TRef.of (T := ⟨S100000x47, .f32⟩) main_call1_v6) Host.exp,
    TRef.nullary (TRef.of (T := ⟨S_, .f32⟩) main_call1_cst_1) (constant S_ .f32 0x00000000#32),
    TRef.binary (TRef.of (T := ⟨S100000x47, .f32⟩) main_call1_v6) (TRef.of (T := ⟨S_, .f32⟩) main_call1_cst_1) (TRef.of (T := ⟨S100000, .f32⟩) main_call1_v7) (fun x v => Host.reduceAdd x v reducesTo_S100000x47_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x47, .f32⟩) main_call1_v10) (broadcastInDim S100000x47 ![0, 1] bcast_S100000x1_S100000x47_0_1),
    TRef.binary (TRef.of (T := ⟨S100000x47, .f32⟩) main_call1_v5) (TRef.of (T := ⟨S100000x47, .f32⟩) main_call1_v10) (TRef.of (T := ⟨S100000x47, .f32⟩) main_v35) subf ]

/-- @main's 58 operations, in order. -/
abbrev ops : List (HloOp τ sig (Elt F)) :=
  [ binary main_arg0 main_arg4 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg2 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg2 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg2 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v16) (TRef.of (T := ⟨S100000x128, .f32⟩) main_call0_v0) (TRef.of (T := ⟨S100000x128, .f32⟩) main_v17) maximumf,
    binary main_v17 main_arg6 main_v18 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg3 main_v19 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_arg2 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_arg2 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg2 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x47_S1600000x1_S1600000x47_1_0_n_n_0_1_147 x i) : (⟨S100000x47, .f32⟩ : BufTy).Contents (Elt F) → (⟨S1600000x1, .i32⟩ : BufTy).Contents (Elt F) → (⟨S1600000x47, .f32⟩ : BufTy).Contents (Elt F)),
    unary main_v19 main_v27 (broadcastInDim S1600000x47 ![0, 1] bcast_S1600000x1_S1600000x47_0_1 : (⟨S1600000x1, .f32⟩ : BufTy).Contents (Elt F) → (⟨S1600000x47, .f32⟩ : BufTy).Contents (Elt F)),
    binary main_v27 main_v26 main_v28 (mulf : (⟨S1600000x47, .f32⟩ : BufTy).Contents (Elt F) → (⟨S1600000x47, .f32⟩ : BufTy).Contents (Elt F) → (⟨S1600000x47, .f32⟩ : BufTy).Contents (Elt F)),
    nullary main_cst_3 (constant S_ .f32 0x00000000#32),
    unary main_cst_3 main_v29 (broadcastInDim S100000x47 ![] bcast_S_S100000x47 : (⟨S_, .f32⟩ : BufTy).Contents (Elt F) → (⟨S100000x47, .f32⟩ : BufTy).Contents (Elt F)),
    unary main_arg1 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x47_S1600000x1_S1600000x47_1_0_0_1 x i u) : (⟨S100000x47, .f32⟩ : BufTy).Contents (Elt F) → (⟨S1600000x1, .i32⟩ : BufTy).Contents (Elt F) → (⟨S1600000x47, .f32⟩ : BufTy).Contents (Elt F) → (⟨S100000x47, .f32⟩ : BufTy).Contents (Elt F)),
    unary main_arg7 main_v32 (broadcastInDim S1x47 ![1] bcast_S47_S1x47_1 : (⟨S47, .f32⟩ : BufTy).Contents (Elt F) → (⟨S1x47, .f32⟩ : BufTy).Contents (Elt F)),
    unary main_v32 main_v33 (broadcastInDim S100000x47 ![0, 1] bcast_S1x47_S100000x47_0_1 : (⟨S1x47, .f32⟩ : BufTy).Contents (Elt F) → (⟨S100000x47, .f32⟩ : BufTy).Contents (Elt F)),
    binary main_v31 main_v33 main_v34 (addf : (⟨S100000x47, .f32⟩ : BufTy).Contents (Elt F) → (⟨S100000x47, .f32⟩ : BufTy).Contents (Elt F) → (⟨S100000x47, .f32⟩ : BufTy).Contents (Elt F)),
    TRef.nullary (TRef.of (T := ⟨S_, .f32⟩) main_call1_cst) (constant S_ .f32 0xFF800000#32),
    TRef.binary (TRef.of (T := ⟨S100000x47, .f32⟩) main_v34) (TRef.of (T := ⟨S_, .f32⟩) main_call1_cst) (TRef.of (T := ⟨S100000, .f32⟩) main_call1_v0) (fun x v => Host.reduce FloatOps.maximumf x v reducesTo_S100000x47_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x47, .f32⟩) main_call1_v4) (broadcastInDim S100000x47 ![0, 1] bcast_S100000x1_S100000x47_0_1),
    TRef.binary (TRef.of (T := ⟨S100000x47, .f32⟩) main_v34) (TRef.of (T := ⟨S100000x47, .f32⟩) main_call1_v4) (TRef.of (T := ⟨S100000x47, .f32⟩) main_call1_v5) subf,
    TRef.unary (TRef.of (T := ⟨S100000x47, .f32⟩) main_call1_v5) (TRef.of (T := ⟨S100000x47, .f32⟩) main_call1_v6) Host.exp,
    TRef.nullary (TRef.of (T := ⟨S_, .f32⟩) main_call1_cst_1) (constant S_ .f32 0x00000000#32),
    TRef.binary (TRef.of (T := ⟨S100000x47, .f32⟩) main_call1_v6) (TRef.of (T := ⟨S_, .f32⟩) main_call1_cst_1) (TRef.of (T := ⟨S100000, .f32⟩) main_call1_v7) (fun x v => Host.reduceAdd x v reducesTo_S100000x47_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x47, .f32⟩) main_call1_v10) (broadcastInDim S100000x47 ![0, 1] bcast_S100000x1_S100000x47_0_1),
    TRef.binary (TRef.of (T := ⟨S100000x47, .f32⟩) main_call1_v5) (TRef.of (T := ⟨S100000x47, .f32⟩) main_call1_v10) (TRef.of (T := ⟨S100000x47, .f32⟩) main_v35) subf ]

/-- The line is its five stretches, one after the other. -/
theorem ops_split : (ops : List (HloOp τ sig (Elt F))) = opsA ++ (opsB ++ (opsC ++ (opsD1 ++ opsD2))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Cert.ReferenceIdeal.Hand

end
-- ==== Proof.RefRun.lean ====
/-
  The reference's run, read back layer by layer.

  The line of 58 operations is read one stretch at a time — the first layer, the ReLU, the second layer, the two halves
  of the log-softmax —, each as one function of the buffers it starts from, and the four compose to `result`.  Cutting the line keeps every
  read-back small: the last stretch mentions its operand four times, and composed with the first three in one term it
  would be four copies of everything before it.
-/
import proofs.«112370_j36687610642609_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each stretch read back -/

section Stretches

attribute [local irreducible] Host.reduce Host.reduceAdd Host.gather Host.scatterAdd

variable (W : Valuation τ sig (Elt F))

theorem afterA_v16 : after opsA W (Proc.devRef .tc main_v16)
    = layer1 (W (Proc.devRef .tc main_arg0)) (W (Proc.devRef .tc main_arg1)) (W (Proc.devRef .tc main_arg2)) (W (Proc.devRef .tc main_arg3)) (W (Proc.devRef .tc main_arg4)) (W (Proc.devRef .tc main_arg5)) := by
  after_results_simp <;> rfl
theorem afterA_arg1 : after opsA W (Proc.devRef .tc main_arg1) = W (Proc.devRef .tc main_arg1) := by after_results_simp <;> rfl
theorem afterA_arg2 : after opsA W (Proc.devRef .tc main_arg2) = W (Proc.devRef .tc main_arg2) := by after_results_simp <;> rfl
theorem afterA_arg3 : after opsA W (Proc.devRef .tc main_arg3) = W (Proc.devRef .tc main_arg3) := by after_results_simp <;> rfl
theorem afterA_arg6 : after opsA W (Proc.devRef .tc main_arg6) = W (Proc.devRef .tc main_arg6) := by after_results_simp <;> rfl
theorem afterA_arg7 : after opsA W (Proc.devRef .tc main_arg7) = W (Proc.devRef .tc main_arg7) := by after_results_simp <;> rfl

theorem afterB_v17 : after opsB W (Proc.devRef .tc main_v17) = rectified (W (Proc.devRef .tc main_v16)) := by
  after_results_simp <;> rfl
theorem afterB_arg1 : after opsB W (Proc.devRef .tc main_arg1) = W (Proc.devRef .tc main_arg1) := by after_results_simp <;> rfl
theorem afterB_arg2 : after opsB W (Proc.devRef .tc main_arg2) = W (Proc.devRef .tc main_arg2) := by after_results_simp <;> rfl
theorem afterB_arg3 : after opsB W (Proc.devRef .tc main_arg3) = W (Proc.devRef .tc main_arg3) := by after_results_simp <;> rfl
theorem afterB_arg6 : after opsB W (Proc.devRef .tc main_arg6) = W (Proc.devRef .tc main_arg6) := by after_results_simp <;> rfl
theorem afterB_arg7 : after opsB W (Proc.devRef .tc main_arg7) = W (Proc.devRef .tc main_arg7) := by after_results_simp <;> rfl

theorem afterC_v34 : after opsC W (Proc.devRef .tc main_v34)
    = layer2 (W (Proc.devRef .tc main_v17)) (W (Proc.devRef .tc main_arg1)) (W (Proc.devRef .tc main_arg2)) (W (Proc.devRef .tc main_arg3)) (W (Proc.devRef .tc main_arg6)) (W (Proc.devRef .tc main_arg7)) := by
  after_results_simp <;> rfl

/-- The first half of the log-softmax with the row reduction an arbitrary function `g` of the array and the initial
    value: the read-back below never looks inside the reduction. -/
abbrev opsD1' (g : (⟨S100000x47, .f32⟩ : BufTy).Contents (Elt F) → (⟨S_, .f32⟩ : BufTy).Contents (Elt F) → (⟨S100000, .f32⟩ : BufTy).Contents (Elt F)) :
    List (HloOp τ sig (Elt F)) :=
  [ TRef.nullary (TRef.of (T := ⟨S_, .f32⟩) main_call1_cst) (constant S_ .f32 0xFF800000#32),
    TRef.binary (TRef.of (T := ⟨S100000x47, .f32⟩) main_v34) (TRef.of (T := ⟨S_, .f32⟩) main_call1_cst) (TRef.of (T := ⟨S100000, .f32⟩) main_call1_v0) g,
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x47, .f32⟩) main_call1_v4) (broadcastInDim S100000x47 ![0, 1] bcast_S100000x1_S100000x47_0_1),
    TRef.binary (TRef.of (T := ⟨S100000x47, .f32⟩) main_v34) (TRef.of (T := ⟨S100000x47, .f32⟩) main_call1_v4) (TRef.of (T := ⟨S100000x47, .f32⟩) main_call1_v5) subf ]

theorem opsD1_eq : (opsD1 : List (HloOp τ sig (Elt F)))
    = opsD1' (fun x v => Host.reduce FloatOps.maximumf x v reducesTo_S100000x47_S100000_d1 h_S_) := rfl

theorem afterD1'_v5 (g : (⟨S100000x47, .f32⟩ : BufTy).Contents (Elt F) → (⟨S_, .f32⟩ : BufTy).Contents (Elt F) → (⟨S100000, .f32⟩ : BufTy).Contents (Elt F)) :
    after (opsD1' g) W (Proc.devRef .tc main_call1_v5)
      = subf (W (Proc.devRef .tc main_v34))
          (broadcastInDim S100000x47 ![0, 1] bcast_S100000x1_S100000x47_0_1 (broadcastInDim S100000x1 ![0] bcast_S100000_S100000x1_0
            (maximumf (broadcastInDim S100000 ![] bcast_S_S100000 (constant S_ .f32 0xFF800000#32))
              (g (W (Proc.devRef .tc main_v34)) (constant S_ .f32 0xFF800000#32))))) := by
  after_results_simp
  simp only [TRef.toBuf, TRef.ofBuf, cast_cast, cast_eq]

theorem afterD1_v5 : after opsD1 W (Proc.devRef .tc main_call1_v5)
    = subf (W (Proc.devRef .tc main_v34)) (rowMaxHost (W (Proc.devRef .tc main_v34))) := by
  rw [opsD1_eq, afterD1'_v5]
  rfl

theorem afterD2_v35 : after opsD2 W (Proc.devRef .tc main_v35)
    = subf (W (Proc.devRef .tc main_call1_v5))
        (broadcastInDim S100000x47 ![0, 1] bcast_S100000x1_S100000x47_0_1 (Host.log (broadcastInDim S100000x1 ![0] bcast_S100000_S100000x1_0
          (Host.reduceAdd (Host.exp (W (Proc.devRef .tc main_call1_v5))) (constant S_ .f32 0x00000000#32) reducesTo_S100000x47_S100000_d1 h_S_)))) := by
  after_results_simp
  simp only [TRef.toBuf, TRef.ofBuf, cast_cast, cast_eq]

theorem afterD_v35 : after (opsD1 ++ opsD2) W (Proc.devRef .tc main_v35) = logSoftmaxHost (W (Proc.devRef .tc main_v34)) := by
  rw [after_append, afterD2_v35, afterD1_v5]
  rfl

/-- The whole line at the returned buffer. -/
theorem after_v35 : after ops W (Proc.devRef .tc main_v35)
    = result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  unfold result
  rw [ops_split, after_append, after_append, after_append, afterD_v35, afterC_v34, afterB_v17, afterB_arg1, afterB_arg2, afterB_arg3,
    afterB_arg6, afterB_arg7, afterA_v16, afterA_arg1, afterA_arg2, afterA_arg3, afterA_arg6, afterA_arg7]

end Stretches

set_option maxRecDepth 8192 in
set_option maxHeartbeats 2000000 in
/-- On every device, for any float values, from any memory with zero counters: every weakly fair execution of @main
    terminates with the returned array at `result` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (after_v35 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Hand

end
-- ==== Proof.KernelRun.lean ====
/-
  The idealized kernel's run with its returned array named.

  @main is three regions among two stretches of host operations.  Every weakly fair execution terminates, nothing
  faulting; the final state holds, at every unscoped buffer, the contents the last boundary of that chain of five segments
  leaves.  The returned buffer is the third region's output window, so it ends at what that region's twenty write-backs
  fold into the array the region found; the eight argument arrays end as launched.
-/
import proofs.«112370_j36687610642609_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the five segments from the launch memory: the returned array is the third region's output array after
    its last write-back, read off the last boundary's contents; each argument array is read back through the chain to
    its launch contents. -/
theorem run : θ_run defs (onTc (τ := τ) (main (F := F))) ⟨m, fun _ => 0, ρ⟩ (fun r => ∀ c : Dev nD,
      r.2.mem ((c.tc : Thread nD τ).loc main_v30) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v30 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Hand

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.LibBiasReluDense.lean ====
/-
  A dense layer after a bias and a ReLU, read at an entry on the extended reals.

  For h of shape [a, k], a bias β over the k columns and weights w of shape [k, n], the entry (p, j) of
  relu (h + β) · w is the sum over q < k of max (h p q + β q) 0 · w q j.  Two spellings compute it: the kernel's (the
  bias a row [1, k] broadcast down the rows, the zero a splat scalar, the operands narrowed on their way into a product
  accumulated from the zero splat) and the host's (the bias a vector broadcast to a row and then down the rows, the
  zero a broadcast scalar constant, a `dot_general`).  Both are shown equal to the one entry formula `reluDenseE`, and
  the plain product to `denseE`, for any extents; the shape facts are hypotheses, so that a printed program's own
  witnesses fit.
-/
import Idealize.ShloMosaic.Lib.ValueIdx
import Idealize.ShloMosaic.Lib.Pipeline.Value
import Idealize.ShloMosaic.PureOps.Ideal.Laws
import proofs.«112370_j36687610642609_1_alg».proof.Proof.LibPlainDot
import proofs.«112370_j36687610642609_1_alg».proof.Proof.LibRowBroadcast
import proofs.«112370_j36687610642609_1_alg».proof.Proof.LibMatrixLayout

noncomputable section

namespace Cert.LibBiasReluDense

open Idealize.ShloMosaic Idealize.ShloMosaic.ValueIdx

variable {a k n : Nat}

/-- Entry (p, j) of the product x · w. -/
def denseE (x : (⟨2, ![a, k]⟩ : Shape).Idx → EReal) (w : (⟨2, ![k, n]⟩ : Shape).Idx → EReal) (p : Fin a) (j : Fin n) : EReal :=
  ∑ q : Fin k, x (ix2 p q) * w (ix2 q j)

/-- Entry (p, j) of relu (h + β) · w, the bias β given by column. -/
def reluDenseE (h : (⟨2, ![a, k]⟩ : Shape).Idx → EReal) (β : Fin k → EReal) (w : (⟨2, ![k, n]⟩ : Shape).Idx → EReal)
    (p : Fin a) (j : Fin n) : EReal :=
  ∑ q : Fin k, max (h (ix2 p q) + β q) 0 * w (ix2 q j)

/-- The kernel's plain product of narrowed operands into the zero splat. -/
theorem kernel_dense_apply (D : DotDims ⟨2, ![a, k]⟩ ⟨2, ![k, n]⟩ ⟨2, ![a, n]⟩) (hD : D = DotDims.plain a k n)
    (x : FVec Ideal ⟨2, ![a, k]⟩ .f32) (w : FVec Ideal ⟨2, ![k, n]⟩ .f32) (ht : FTy.bf16.bits < FTy.f32.bits)
    (p : Fin a) (j : Fin n) :
    matmul D none (truncf .bf16 x ht) (truncf .bf16 w ht) (constant (F := Ideal) ⟨2, ![a, n]⟩ .f32 0x00000000#32) (ix2 p j)
      = denseE x w p j :=
  Cert.PlainDot.matmul_zero_ix2 D hD none (truncf .bf16 x ht) (truncf .bf16 w ht) p j

/-- The host's plain product. -/
theorem host_dense_apply (D : DotDims ⟨2, ![a, k]⟩ ⟨2, ![k, n]⟩ ⟨2, ![a, n]⟩) (hD : D = DotDims.plain a k n)
    (x : FVec Ideal ⟨2, ![a, k]⟩ .f32) (w : FVec Ideal ⟨2, ![k, n]⟩ .f32) (p : Fin a) (j : Fin n) :
    Host.dotGeneral D none x w (ix2 p j) = denseE x w p j :=
  Cert.PlainDot.dotGeneral_ix2 D hD none x w p j

/-- The kernel's spelling of the biased, rectified layer at entry (p, j): the bias row's entry (0, q) by column. -/
theorem kernel_reluDense_apply (D : DotDims ⟨2, ![a, k]⟩ ⟨2, ![k, n]⟩ ⟨2, ![a, n]⟩) (hD : D = DotDims.plain a k n)
    (h : FVec Ideal ⟨2, ![a, k]⟩ .f32) (b : FVec Ideal ⟨2, ![1, k]⟩ .f32) (w : FVec Ideal ⟨2, ![k, n]⟩ .f32)
    (hs : (⟨2, ![a, k]⟩ : Shape).ShapeCasts ⟨2, ![a, k]⟩) (hsb : (⟨2, ![1, k]⟩ : Shape).ShapeCasts ⟨2, ![1, k]⟩)
    (hb : (⟨2, ![1, k]⟩ : Shape).Broadcasts ⟨2, ![a, k]⟩) (ht : FTy.bf16.bits < FTy.f32.bits) (p : Fin a) (j : Fin n) :
    matmul D none
        (truncf .bf16 (maximumf (addf (shapeCast ⟨2, ![a, k]⟩ h hs) (broadcastTo ⟨2, ![a, k]⟩ (shapeCast ⟨2, ![1, k]⟩ b hsb) hb))
          (broadcast ⟨2, ![a, k]⟩ (Scalar.ofBits (F := Ideal) .f32 0x00000000#32))) ht)
        (truncf .bf16 w ht) (constant (F := Ideal) ⟨2, ![a, n]⟩ .f32 0x00000000#32) (ix2 p j)
      = reluDenseE h (fun q => b (ix2 (0 : Fin 1) q)) w p j := by
  refine (Cert.PlainDot.matmul_zero_ix2 D hD none _ _ p j).trans (Finset.sum_congr rfl fun q _ => ?_)
  rw [truncf_apply, truncf_apply, maximumf_apply, addf_apply, shapeCast_self, shapeCast_self,
    Cert.LibRowBroadcast.broadcastTo_1b_ab_apply, broadcast_apply]
  show max _ (Ideal.ofBits .f32 0x00000000#32) * _ = _
  rw [Ideal.ofBits_zero_f32]

/-- The host's spelling of the biased, rectified layer at entry (p, j): the bias vector's entry q by column. -/
theorem host_reluDense_apply (D : DotDims ⟨2, ![a, k]⟩ ⟨2, ![k, n]⟩ ⟨2, ![a, n]⟩) (hD : D = DotDims.plain a k n)
    (h : FVec Ideal ⟨2, ![a, k]⟩ .f32) (b : FVec Ideal ⟨1, ![k]⟩ .f32) (w : FVec Ideal ⟨2, ![k, n]⟩ .f32)
    (hb1 : (⟨1, ![k]⟩ : Shape).BroadcastsInDim ⟨2, ![1, k]⟩ ![1])
    (hb2 : (⟨2, ![1, k]⟩ : Shape).BroadcastsInDim ⟨2, ![a, k]⟩ ![0, 1])
    (hb0 : (⟨0, ![]⟩ : Shape).BroadcastsInDim ⟨2, ![a, k]⟩ ![]) (p : Fin a) (j : Fin n) :
    Host.dotGeneral D none
        (maximumf (addf h (broadcastInDim ⟨2, ![a, k]⟩ ![0, 1] hb2 (broadcastInDim ⟨2, ![1, k]⟩ ![1] hb1 b)))
          (broadcastInDim ⟨2, ![a, k]⟩ ![] hb0 (constant (F := Ideal) ⟨0, ![]⟩ .f32 0x00000000#32)))
        w (ix2 p j)
      = reluDenseE h (fun q => b (ix1 q)) w p j := by
  refine (Cert.PlainDot.dotGeneral_ix2 D hD none _ _ p j).trans (Finset.sum_congr rfl fun q _ => ?_)
  rw [maximumf_apply, addf_apply, Cert.LibMatrixLayout.bcast_1b_ab_apply, Cert.LibMatrixLayout.bcast_b_1b_apply,
    Cert.LibMatrixLayout.bcast_scalar_apply, constant_apply, Ideal.ofBits_zero_f32]

end Cert.LibBiasReluDense

end
-- ==== Proof.KernelLayer0.lean ====
/-
  The first region's output array: the plain product of the features with the first weights, entry by entry.

  The region's grid has 20 points; point t stages rows 5000·t … 5000·t + 4999 of the left operand and the whole right
  operand, and writes back the same rows of the output.  So block t of the output, read at (p, j), is the sum over q of
  x (5000·t + p, q) · w (q, j): block t of one whole-array function, and the 20 blocks cover the array.
-/
import proofs.«112370_j36687610642609_1_alg».proof.Proof.Gen.KernelIdeal.Frame
import proofs.«112370_j36687610642609_1_alg».proof.Proof.LibBiasReluDense
import Idealize.ShloMosaic.Lib.Pipeline.Value
import Idealize.ShloMosaic.Lib.ValueIdx

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)
open Cert.LibBiasReluDense

variable (V : (c : Dev nD) → (b : Ref sig .tc) → Buf (Elt Ideal) ((c : Thread nD τ).loc b))

theorem hz2 : (![0, 0] : Fin 2 → Nat) = fun _ => 0 := funext fun a => by fin_cases a <;> rfl

/-- The first layer's output as one function of the whole operands. -/
def G0 (x : S100000x256.Idx → EReal) (w : S256x128.Idx → EReal) : S100000x128.Idx → EReal :=
  fun i => denseE x w (i 0) (i 1)

/-- The body's payload at entry (p, j) of a block. -/
theorem pay0_apply (v0 : Vec Ideal S5000x256 .f32) (v2 : Vec Ideal S256x128 .f32) (p : Fin 5000) (j : Fin 128) :
    k0_pay1 (F := Ideal) v0 v2 (ix2 p j) = denseE v0 v2 p j := by
  unfold k0_pay1
  exact kernel_dense_apply dot_S5000x256_S256x128_S5000x128_1_0_0_1_n_n rfl v0 v2 bitsLt_bf16_f32 p j

/-- The printed index maps over the grid: the row-blocked windows sit at block (t, 0), the weights at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt20_0 (t : Fin cfg0.N) : t.val < 20 := by
  have h := t.isLt
  have e : cfg0.N = 20 := N_0
  omega

/-- WHAT POINT t WRITES BACK is block t of `G0` of the arrays as the region finds them. -/
theorem flushed0 (c : Dev nD) (t : Fin cfg0.N) :
    (dat0 V c).flushed 2 t = ((cfg0.win 2).blk t).view.read (Elt Ideal) (G0 (V c main_arg0) (V c main_arg4)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x128) hz2]
  obtain ⟨e0, e1, e2, e3, e4, e5⟩ := idx_facts0 t
  have ht := lt20_0 t
  funext y
  obtain ⟨p, j, rfl⟩ : ∃ (p : Fin 5000) (j : Fin 128), y = ix2 p j := ⟨y 0, y 1, eq_ix2 y⟩
  show k0_pay1 (iblk0 V c 0 t) (iblk0 V c 1 t) (ix2 p j)
    = G0 (V c main_arg0) (V c main_arg4) (((cfg0.win 2).blk t).view.emb (ix2 p j))
  refine (pay0_apply _ _ p j).trans ?_
  have hout : ((cfg0.win 2).blk t).view.emb (ix2 p j) = ix2 (⟨t.val * 5000 + p.val, by omega⟩ : Fin 100000) j := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * j.val = j.val; omega
  rw [hout]
  show denseE _ _ p j = denseE _ _ (⟨t.val * 5000 + p.val, by omega⟩ : Fin 100000) j
  unfold denseE
  refine Finset.sum_congr rfl fun q _ => ?_
  have hl : ((cfg0.win 0).blk t).view.emb (ix2 p q) = ix2 (⟨t.val * 5000 + p.val, by omega⟩ : Fin 100000) q := by
    funext a; apply Fin.ext
    match a with
    | ⟨0, _⟩ => show win0_0.index t (0 : Fin 2) * 5000 + 1 * p.val = t.val * 5000 + p.val; omega
    | ⟨1, _⟩ => show win0_0.index t (1 : Fin 2) * 256 + 1 * q.val = q.val; omega
  have hr : ((cfg0.win 1).blk t).view.emb (ix2 q j) = ix2 q j := by
    funext a; apply Fin.ext
    match a with
    | ⟨0, _⟩ => show win0_1.index t (0 : Fin 2) * 256 + 1 * q.val = q.val; omega
    | ⟨1, _⟩ => show win0_1.index t (1 : Fin 2) * 128 + 1 * j.val = j.val; omega
  refine congrArg₂ (· * ·) ?_ ?_
  · exact congrArg (V c main_arg0) hl
  · exact congrArg (V c main_arg4) hr

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The 20 row blocks cover the output array: row r lies in the block of point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE FIRST LAYER'S ARRAY after the region: the plain product of the arrays the region finds. -/
theorem final0 (c : Dev nD) : (dat0 V c).arrAt 2 cfg0.N = G0 (V c main_arg0) (V c main_arg4) :=
  (dat0 V c).arrAt_eq_of_cover 2 (G0 (V c main_arg0) (V c main_arg4)) (fun t _ => flushed0 V c t) cover0

end Cert.KernelIdeal.Layers

end
-- ==== Proof.KernelLayer1.lean ====
/-
  The second region's output array: the dense layer after the first bias and the ReLU, entry by entry.

  Point t of the 20 stages rows 5000·t … 5000·t + 4999 of the aggregated hidden array, the whole bias row and the whole
  second weights, and writes back the same rows of the output.  Block t of the output, read at (p, j), is the sum over q
  of max (h (5000·t + p, q) + b (0, q)) 0 · w (q, j): block t of one whole-array function, and the 20 blocks cover the array.
-/
import proofs.«112370_j36687610642609_1_alg».proof.Proof.Gen.KernelIdeal.Frame
import proofs.«112370_j36687610642609_1_alg».proof.Proof.LibBiasReluDense
import Idealize.ShloMosaic.Lib.Pipeline.Value
import Idealize.ShloMosaic.Lib.ValueIdx

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)
open Cert.LibBiasReluDense

variable (V : (c : Dev nD) → (b : Ref sig .tc) → Buf (Elt Ideal) ((c : Thread nD τ).loc b))

theorem hz2' : (![0, 0] : Fin 2 → Nat) = fun _ => 0 := funext fun a => by fin_cases a <;> rfl

/-- The second layer's output as one function of the whole operands, the bias a one-row matrix. -/
def G1 (h : S100000x128.Idx → EReal) (b : S1x128.Idx → EReal) (w : S128x47.Idx → EReal) : S100000x47.Idx → EReal :=
  fun i => reluDenseE h (fun q => b (ix2 (0 : Fin 1) q)) w (i 0) (i 1)

/-- The body's payload at entry (p, j) of a block. -/
theorem pay1_apply (v0 : Vec Ideal S5000x128 .f32) (v2 : Vec Ideal S1x128 .f32) (v9 : Vec Ideal S128x47 .f32) (p : Fin 5000) (j : Fin 47) :
    k1_pay1 (F := Ideal) v0 v2 v9 (ix2 p j) = reluDenseE v0 (fun q => v2 (ix2 (0 : Fin 1) q)) v9 p j := by
  unfold k1_pay1
  exact kernel_reluDense_apply dot_S5000x128_S128x47_S5000x47_1_0_0_1_n_n rfl v0 v2 v9 shapeCasts_S5000x128_S5000x128
    shapeCasts_S1x128_S1x128 broadcasts_S1x128_S5000x128 bitsLt_bf16_f32 p j

/-- The printed index maps over the grid: the row-blocked windows sit at block (t, 0), the bias and the weights at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt20_1 (t : Fin cfg1.N) : t.val < 20 := by
  have h := t.isLt
  have e : cfg1.N = 20 := N_1
  omega

/-- WHAT POINT t WRITES BACK is block t of `G1` of the arrays as the region finds them. -/
theorem flushed1 (c : Dev nD) (t : Fin cfg1.N) :
    (dat1 V c).flushed 3 t = ((cfg1.win 3).blk t).view.read (Elt Ideal) (G1 (V c main_v13) (V c main_v14) (V c main_arg6)) := by
  show (cfg1.win 3).cut (grid1.coords t) ((dat1 V c).after 3 t) = _
  rw [after1_3]
  unfold out1_3
  rw [View.canon_unit_zero hz2']
  simp only [View.ld_unit_zero (S := S5000x128) hz2', View.ld_unit_zero (S := S1x128) hz2', View.ld_unit_zero (S := S128x47) hz2']
  obtain ⟨e0, e1, e2, e3, e4, e5, e6, e7⟩ := idx_facts1 t
  have ht := lt20_1 t
  funext y
  obtain ⟨p, j, rfl⟩ : ∃ (p : Fin 5000) (j : Fin 47), y = ix2 p j := ⟨y 0, y 1, eq_ix2 y⟩
  show k1_pay1 (iblk1 V c 0 t) (iblk1 V c 1 t) (iblk1 V c 2 t) (ix2 p j)
    = G1 (V c main_v13) (V c main_v14) (V c main_arg6) (((cfg1.win 3).blk t).view.emb (ix2 p j))
  refine (pay1_apply _ _ _ p j).trans ?_
  have hout : ((cfg1.win 3).blk t).view.emb (ix2 p j) = ix2 (⟨t.val * 5000 + p.val, by omega⟩ : Fin 100000) j := by
    funext a; apply Fin.ext
    match a with
    | ⟨0, _⟩ => show win1_3.index t (0 : Fin 2) * 5000 + 1 * p.val = t.val * 5000 + p.val; omega
    | ⟨1, _⟩ => show win1_3.index t (1 : Fin 2) * 47 + 1 * j.val = j.val; omega
  rw [hout]
  show reluDenseE _ _ _ p j = reluDenseE _ _ _ (⟨t.val * 5000 + p.val, by omega⟩ : Fin 100000) j
  unfold reluDenseE
  refine Finset.sum_congr rfl fun q _ => ?_
  have hl : ((cfg1.win 0).blk t).view.emb (ix2 p q) = ix2 (⟨t.val * 5000 + p.val, by omega⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have hb : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have hr : ((cfg1.win 2).blk t).view.emb (ix2 q j) = ix2 q j := by
    funext a; apply Fin.ext
    match a with
    | ⟨0, _⟩ => show win1_2.index t (0 : Fin 2) * 128 + 1 * q.val = q.val; omega
    | ⟨1, _⟩ => show win1_2.index t (1 : Fin 2) * 47 + 1 * j.val = j.val; omega
  refine congrArg₂ (· * ·) (congrArg (max · 0) (congrArg₂ (· + ·) ?_ ?_)) ?_
  · exact congrArg (V c main_v13) hl
  · exact congrArg (V c main_v14) hb
  · exact congrArg (V c main_arg6) hr

/-- An index of the array is in point t's block iff each coordinate is in the block's range on its axis. -/
theorem mem_blk1 (t : Fin cfg1.N) (i : S100000x47.Idx) :
    i ∈ ((cfg1.win 3).blk t).view.set ↔ ∀ a : Fin 2, win1_3.index t a * S5000x47.size a ≤ (i a).val ∧ (i a).val < win1_3.index t a * S5000x47.size a + S5000x47.size a := by
  show i ∈ ((View.whole main_v15).slice (win1_3.rect t)).set ↔ _
  rw [View.set_slice_whole, Rect.mem_set_unit]
  exact Iff.rfl

/-- The 20 row blocks cover the output array: row r lies in the block of point r / 5000. -/
theorem cover1 (i : S100000x47.Idx) : ∃ t : Fin cfg1.N, (cfg1.win 3).flush t = true ∧ i ∈ ((cfg1.win 3).blk t).view.set := by
  have hi0 : (i 0).val < 100000 := (i 0).isLt
  have hi1 : (i 1).val < 47 := (i 1).isLt
  have hN : cfg1.N = 20 := N_1
  let t : Fin cfg1.N := ⟨(i 0).val / 5000, by rw [hN]; omega⟩
  obtain ⟨-, -, -, -, -, -, e6, e7⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 47 ≤ (i 1).val ∧ (i 1).val < win1_3.index t (1 : Fin 2) * 47 + 47; omega

/-- THE SECOND LAYER'S ARRAY after the region: the rectified dense layer of the arrays the region finds. -/
theorem final1 (c : Dev nD) : (dat1 V c).arrAt 3 cfg1.N = G1 (V c main_v13) (V c main_v14) (V c main_arg6) :=
  (dat1 V c).arrAt_eq_of_cover 3 (G1 (V c main_v13) (V c main_v14) (V c main_arg6)) (fun t _ => flushed1 V c t) cover1

end Cert.KernelIdeal.Layers

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibRowLogSoftmax.lean ====
/-
  The logarithm of the softmax along the rows of a matrix, read at an entry on the extended reals.

  For a matrix x of shape [a, n] and a row p, write top = the fold of max over the row's entries, started from the value of
  the f32 pattern of minus infinity.  The entry (p, j) of the result is (x p j - top) - log (sum over k of exp (x p k - top)).
  Two spellings compute it: the kernel's (a lane maximum and a lane sum kept as columns [a, 1] and broadcast back along
  the rows) and the host's (two one-operand reductions over axis 1, the maximum joined once more with minus infinity,
  each result broadcast to a column and then along the rows).  Both are shown equal to the one entry formula
  `logSoftmaxRow`, for any extents; the shape facts are hypotheses, so that a printed program's own witnesses fit.
-/
import Idealize.ShloMosaic.Lib.ValueIdx
import Idealize.ShloMosaic.Lib.Pipeline.Value
import Idealize.ShloMosaic.PureOps.Ideal.Laws
import proofs.«112370_j36687610642609_1_alg».proof.Proof.LibColBroadcast
import proofs.«112370_j36687610642609_1_alg».proof.Proof.LibMatrixLayout

noncomputable section

namespace Cert.LibRowLogSoftmax

open Idealize.ShloMosaic Idealize.ShloMosaic.ValueIdx

/-- The largest entry of a row: the fold of `max` from the value of the f32 pattern of minus infinity. -/
def rowTop {n : Nat} (f : Fin n → EReal) : EReal :=
  (Finset.univ : Finset (Fin n)).fold max (Ideal.ofBits .f32 0xFF800000#32) f

/-- The row's entry j of the logarithm of the softmax, shifted by the row's largest entry. -/
def logSoftmaxRow {n : Nat} (f : Fin n → EReal) (j : Fin n) : EReal :=
  (f j - rowTop f) - Ideal.log (∑ k : Fin n, Ideal.exp (f k - rowTop f))

/-- Joining the fold once more with its own starting value changes nothing. -/
theorem max_start_rowTop {n : Nat} (f : Fin n → EReal) : max (Ideal.ofBits .f32 0xFF800000#32) (rowTop f) = rowTop f :=
  max_eq_right (by unfold rowTop; exact (Finset.le_fold_max _).mpr (Or.inl le_rfl))

variable {a n : Nat}

/-- The index a reduction over axis 1 inserts the coordinate k into, at row p: the entry (p, k). -/
theorem lift_row (h : Shape.Reduces ⟨2, ![a, n]⟩ [1] ⟨1, ![a]⟩) (p : Fin a) (k : Fin n) : h.lift (ix1 p) k = ix2 p k := by
  funext d
  apply Fin.ext
  match d with
  | ⟨0, _⟩ => rfl
  | ⟨1, _⟩ => rfl

/-- The kernel's lane maximum at row p. -/
theorem kernel_rowTop (x : FVec Ideal ⟨2, ![a, n]⟩ .f32) (h : Shape.Reduces ⟨2, ![a, n]⟩ [1] ⟨1, ![a]⟩) (hφ : FKind.Formats .f32)
    (hacc : (0xFF800000#32 : BitVec FTy.f32.bits) = FKind.maximumf.neutral .f32 hφ) (p : Fin a) :
    multiReduction .maximumf [1] ⟨1, ![a]⟩ x 0xFF800000#32 h hφ hacc (ix1 p) = rowTop fun k => x (ix2 p k) := by
  refine (Ideal.multiReduction_maximumf_single x _ h hφ hacc (ix1 p)).trans ?_
  have e : (x ∘ h.lift (ix1 p)) = fun k : Fin n => x (ix2 p k) := funext fun k => congrArg x (lift_row h p k)
  rw [e]
  rfl

/-- The kernel's lane sum at row p. -/
theorem kernel_rowSum (y : FVec Ideal ⟨2, ![a, n]⟩ .f32) (h : Shape.Reduces ⟨2, ![a, n]⟩ [1] ⟨1, ![a]⟩) (hφ : FKind.Formats .f32)
    (hacc : (0x00000000#32 : BitVec FTy.f32.bits) = FKind.add.neutral .f32 hφ) (p : Fin a) :
    multiReduction .add [1] ⟨1, ![a]⟩ y 0x00000000#32 h hφ hacc (ix1 p) = ∑ k : Fin n, y (ix2 p k) :=
  (Ideal.multiReduction_add_single y _ h hφ hacc (ix1 p)).trans
    (Finset.sum_congr rfl fun k _ => congrArg y (lift_row h p k))

/-- The kernel's spelling at entry (p, j). -/
theorem kernel_apply (x : FVec Ideal ⟨2, ![a, n]⟩ .f32) (h : Shape.Reduces ⟨2, ![a, n]⟩ [1] ⟨1, ![a]⟩)
    (hc : (⟨1, ![a]⟩ : Shape).ShapeCasts ⟨2, ![a, 1]⟩) (hb : (⟨2, ![a, 1]⟩ : Shape).Broadcasts ⟨2, ![a, n]⟩)
    (hφ : FKind.Formats .f32) (hmax : (0xFF800000#32 : BitVec FTy.f32.bits) = FKind.maximumf.neutral .f32 hφ)
    (hadd : (0x00000000#32 : BitVec FTy.f32.bits) = FKind.add.neutral .f32 hφ) (p : Fin a) (j : Fin n) :
    subf (subf x (broadcastTo ⟨2, ![a, n]⟩ (shapeCast ⟨2, ![a, 1]⟩ (multiReduction .maximumf [1] ⟨1, ![a]⟩ x 0xFF800000#32 h hφ hmax) hc) hb))
      (broadcastTo ⟨2, ![a, n]⟩ (log (shapeCast ⟨2, ![a, 1]⟩ (multiReduction .add [1] ⟨1, ![a]⟩
        (exp (subf x (broadcastTo ⟨2, ![a, n]⟩ (shapeCast ⟨2, ![a, 1]⟩ (multiReduction .maximumf [1] ⟨1, ![a]⟩ x 0xFF800000#32 h hφ hmax) hc) hb)))
        0x00000000#32 h hφ hadd) hc)) hb) (ix2 p j)
      = logSoftmaxRow (fun k => x (ix2 p k)) j := by
  have hz : ∀ k : Fin n, subf x (broadcastTo ⟨2, ![a, n]⟩ (shapeCast ⟨2, ![a, 1]⟩ (multiReduction .maximumf [1] ⟨1, ![a]⟩ x 0xFF800000#32 h hφ hmax) hc) hb) (ix2 p k)
      = x (ix2 p k) - rowTop (fun k => x (ix2 p k)) := fun k => by
    rw [subf_apply, Cert.LibColBroadcast.broadcastTo_a1_ab_apply, Cert.LibMatrixLayout.shapeCast_a_a1_apply, kernel_rowTop]
  rw [subf_apply, hz, Cert.LibColBroadcast.broadcastTo_a1_ab_apply]
  show _ - Ideal.log (shapeCast ⟨2, ![a, 1]⟩ _ hc (ix2 p (0 : Fin 1))) = _
  rw [Cert.LibMatrixLayout.shapeCast_a_a1_apply, kernel_rowSum]
  unfold logSoftmaxRow
  refine congrArg (fun s => _ - Ideal.log s) (Finset.sum_congr rfl fun k _ => ?_)
  show Ideal.exp _ = _
  rw [hz]

/-- The host's maximum over axis 1 at row p. -/
theorem host_rowTop (x : FVec Ideal ⟨2, ![a, n]⟩ .f32) (h' : Shape.ReducesTo ⟨2, ![a, n]⟩ [1] ⟨1, ![a]⟩)
    (h : Shape.Reduces ⟨2, ![a, n]⟩ [1] ⟨1, ![a]⟩) (hu : 0 < (⟨0, ![]⟩ : Shape).numel) (p : Fin a) :
    Host.reduce FloatOps.maximumf x (constant (F := Ideal) ⟨0, ![]⟩ .f32 0xFF800000#32) h' hu (ix1 p) = rowTop fun k => x (ix2 p k) := by
  rw [Host.reduce_eq_fold_single FloatOps.maximumf x _ h' h hu]
  have e : (x ∘ h.lift (ix1 p)) = fun k : Fin n => x (ix2 p k) := funext fun k => congrArg x (lift_row h p k)
  rw [e]
  rfl

/-- The host's sum over axis 1 at row p, from the zero pattern. -/
theorem host_rowSum (y : FVec Ideal ⟨2, ![a, n]⟩ .f32) (h' : Shape.ReducesTo ⟨2, ![a, n]⟩ [1] ⟨1, ![a]⟩)
    (h : Shape.Reduces ⟨2, ![a, n]⟩ [1] ⟨1, ![a]⟩) (hu : 0 < (⟨0, ![]⟩ : Shape).numel) (p : Fin a) :
    Host.reduceAdd y (constant (F := Ideal) ⟨0, ![]⟩ .f32 0x00000000#32) h' hu (ix1 p) = ∑ k : Fin n, y (ix2 p k) := by
  simp only [Host.reduceAdd, Ideal.hostReduceAdd_def]
  rw [Ideal.hostReduceAdd_single h' h, constant_apply, Ideal.ofBits_zero_f32, zero_add]
  exact Finset.sum_congr rfl fun k _ => congrArg y (lift_row h p k)

/-- The host's spelling at entry (p, j). -/
theorem host_apply (x : FVec Ideal ⟨2, ![a, n]⟩ .f32) (h' : Shape.ReducesTo ⟨2, ![a, n]⟩ [1] ⟨1, ![a]⟩)
    (h : Shape.Reduces ⟨2, ![a, n]⟩ [1] ⟨1, ![a]⟩) (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, n]⟩ ![0, 1]) (p : Fin a) (j : Fin n) :
    subf (subf x (broadcastInDim ⟨2, ![a, n]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) h' hu)))))
      (broadcastInDim ⟨2, ![a, n]⟩ ![0, 1] hb2 (Host.log (broadcastInDim ⟨2, ![a, 1]⟩ ![0] hb1
        (Host.reduceAdd (Host.exp (subf x (broadcastInDim ⟨2, ![a, n]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf x (constant (F := Ideal) ⟨0, ![]⟩ .f32 0xFF800000#32) h' hu))))))
          (constant (F := Ideal) ⟨0, ![]⟩ .f32 0x00000000#32) h' hu)))) (ix2 p j)
      = logSoftmaxRow (fun k => x (ix2 p k)) j := by
  have hz : ∀ k : Fin n, subf x (broadcastInDim ⟨2, ![a, n]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) h' hu)))) (ix2 p k)
      = x (ix2 p k) - rowTop (fun k => x (ix2 p k)) := fun k => by
    rw [subf_apply, Cert.LibMatrixLayout.bcast_a1_ab_apply, Cert.LibMatrixLayout.bcast_a_a1_apply, maximumf_apply,
      Cert.LibMatrixLayout.bcast_scalar_apply, constant_apply, host_rowTop x h' h hu p, max_start_rowTop]
  rw [subf_apply, hz, Cert.LibMatrixLayout.bcast_a1_ab_apply]
  unfold Host.log
  rw [Cert.LibMatrixLayout.bcast_a_a1_apply, host_rowSum _ h' h hu p]
  unfold logSoftmaxRow
  refine congrArg (fun s => _ - Ideal.log s) (Finset.sum_congr rfl fun k _ => ?_)
  show Ideal.exp _ = _
  rw [hz]

end Cert.LibRowLogSoftmax

end
-- ==== Proof.KernelLayer2.lean ====
/-
  The third region's output array: the second bias and the logarithm of the softmax along the rows, entry by entry.

  Point t of the 20 stages rows 5000·t … 5000·t + 4999 of the aggregated array and the whole bias row, and writes back the
  same rows of the output.  A row of the output depends on that row of the input alone: with f k = s (r, k) + b (0, k) and
  top the largest f k, entry (r, j) is (f j - top) - log (sum over k of exp (f k - top)).  So block t of the output is
  block t of one whole-array function, and the 20 blocks cover the array.
-/
import proofs.«112370_j36687610642609_1_alg».proof.Proof.Gen.KernelIdeal.Frame
import proofs.«112370_j36687610642609_1_alg».proof.Proof.LibRowBroadcast
import proofs.«112370_j36687610642609_1_alg».proof.Proof.LibRowLogSoftmax
import Idealize.ShloMosaic.Lib.Pipeline.Value
import Idealize.ShloMosaic.Lib.ValueIdx

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)
open Cert.LibRowLogSoftmax

variable (V : (c : Dev nD) → (b : Ref sig .tc) → Buf (Elt Ideal) ((c : Thread nD τ).loc b))

theorem hz2'' : (![0, 0] : Fin 2 → Nat) = fun _ => 0 := funext fun a => by fin_cases a <;> rfl

/-- The output as one function of the whole operands, the bias a one-row matrix. -/
def G2 (s : S100000x47.Idx → EReal) (b : S1x47.Idx → EReal) : S100000x47.Idx → EReal :=
  fun i => logSoftmaxRow (fun k => s (ix2 (i 0) k) + b (ix2 (0 : Fin 1) k)) (i 1)

/-- The body's payload at entry (p, j) of a block. -/
theorem pay2_apply (v0 : Vec Ideal S5000x47 .f32) (v2 : Vec Ideal S1x47 .f32) (p : Fin 5000) (j : Fin 47) :
    k2_pay1 (F := Ideal) v0 v2 (ix2 p j) = logSoftmaxRow (fun k => v0 (ix2 p k) + v2 (ix2 (0 : Fin 1) k)) j := by
  unfold k2_pay1
  refine (kernel_apply (addf (shapeCast S5000x47 v0 shapeCasts_S5000x47_S5000x47)
      (broadcastTo S5000x47 (shapeCast S1x47 v2 shapeCasts_S1x47_S1x47) broadcasts_S1x47_S5000x47))
    reduces_S5000x47_S5000 shapeCasts_S5000_S5000x1 broadcasts_S5000x1_S5000x47 (.inl rfl) rfl rfl p j).trans ?_
  refine congrArg (fun f => logSoftmaxRow f j) (funext fun k => ?_)
  rw [addf_apply, shapeCast_self, shapeCast_self, Cert.LibRowBroadcast.broadcastTo_1b_ab_apply]

/-- The printed index maps over the grid: the row-blocked windows sit at block (t, 0), the bias at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt20_2 (t : Fin cfg2.N) : t.val < 20 := by
  have h := t.isLt
  have e : cfg2.N = 20 := N_2
  omega

/-- WHAT POINT t WRITES BACK is block t of `G2` of the arrays as the region finds them. -/
theorem flushed2 (c : Dev nD) (t : Fin cfg2.N) :
    (dat2 V c).flushed 2 t = ((cfg2.win 2).blk t).view.read (Elt Ideal) (G2 (V c main_v28) (V c main_v29)) := by
  show (cfg2.win 2).cut (grid2.coords t) ((dat2 V c).after 2 t) = _
  rw [after2_2]
  unfold out2_2
  rw [View.canon_unit_zero hz2'']
  simp only [View.ld_unit_zero (S := S5000x47) hz2'', View.ld_unit_zero (S := S1x47) hz2'']
  obtain ⟨e0, e1, e2, e3, e4, e5⟩ := idx_facts2 t
  have ht := lt20_2 t
  funext y
  obtain ⟨p, j, rfl⟩ : ∃ (p : Fin 5000) (j : Fin 47), y = ix2 p j := ⟨y 0, y 1, eq_ix2 y⟩
  show k2_pay1 (iblk2 V c 0 t) (iblk2 V c 1 t) (ix2 p j)
    = G2 (V c main_v28) (V c main_v29) (((cfg2.win 2).blk t).view.emb (ix2 p j))
  refine (pay2_apply _ _ p j).trans ?_
  have hout : ((cfg2.win 2).blk t).view.emb (ix2 p j) = ix2 (⟨t.val * 5000 + p.val, by omega⟩ : Fin 100000) j := by
    funext a; apply Fin.ext
    match a with
    | ⟨0, _⟩ => show win2_2.index t (0 : Fin 2) * 5000 + 1 * p.val = t.val * 5000 + p.val; omega
    | ⟨1, _⟩ => show win2_2.index t (1 : Fin 2) * 47 + 1 * j.val = j.val; omega
  rw [hout]
  show logSoftmaxRow _ j = logSoftmaxRow _ j
  refine congrArg (fun f => logSoftmaxRow f j) (funext fun k => ?_)
  have hl : ((cfg2.win 0).blk t).view.emb (ix2 p k) = ix2 (⟨t.val * 5000 + p.val, by omega⟩ : Fin 100000) k := by
    funext a; apply Fin.ext
    match a with
    | ⟨0, _⟩ => show win2_0.index t (0 : Fin 2) * 5000 + 1 * p.val = t.val * 5000 + p.val; omega
    | ⟨1, _⟩ => show win2_0.index t (1 : Fin 2) * 47 + 1 * k.val = k.val; omega
  have hb : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 47 + 1 * k.val = k.val; omega
  refine congrArg₂ (· + ·) ?_ ?_
  · exact congrArg (V c main_v28) hl
  · exact congrArg (V c main_v29) hb

/-- An index of the array is in point t's block iff each coordinate is in the block's range on its axis. -/
theorem mem_blk2 (t : Fin cfg2.N) (i : S100000x47.Idx) :
    i ∈ ((cfg2.win 2).blk t).view.set ↔ ∀ a : Fin 2, win2_2.index t a * S5000x47.size a ≤ (i a).val ∧ (i a).val < win2_2.index t a * S5000x47.size a + S5000x47.size a := by
  show i ∈ ((View.whole main_v30).slice (win2_2.rect t)).set ↔ _
  rw [View.set_slice_whole, Rect.mem_set_unit]
  exact Iff.rfl

/-- The 20 row blocks cover the output array: row r lies in the block of point r / 5000. -/
theorem cover2 (i : S100000x47.Idx) : ∃ t : Fin cfg2.N, (cfg2.win 2).flush t = true ∧ i ∈ ((cfg2.win 2).blk t).view.set := by
  have hi0 : (i 0).val < 100000 := (i 0).isLt
  have hi1 : (i 1).val < 47 := (i 1).isLt
  have hN : cfg2.N = 20 := N_2
  let t : Fin cfg2.N := ⟨(i 0).val / 5000, by rw [hN]; omega⟩
  obtain ⟨-, -, -, -, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 47 ≤ (i 1).val ∧ (i 1).val < win2_2.index t (1 : Fin 2) * 47 + 47; omega

/-- THE RETURNED ARRAY after the region: the log-softmax of the biased array the region finds. -/
theorem final2 (c : Dev nD) : (dat2 V c).arrAt 2 cfg2.N = G2 (V c main_v28) (V c main_v29) :=
  (dat2 V c).arrAt_eq_of_cover 2 (G2 (V c main_v28) (V c main_v29)) (fun t _ => flushed2 V c t) cover2

end Cert.KernelIdeal.Layers

end
-- ==== Proof.KernelValue.lean ====
/-
  The idealized kernel's returned array as one function of the eight argument arrays.

  The first region leaves the product of the features with the first weights; the host stretch after it aggregates that
  array over the edges (a gather of rows by the wrapped column indices, scaled by the edge values, scatter-added by the row
  indices into zeros) and reshapes the first bias to a row; the second region leaves the dense layer of the rectified,
  biased aggregate; the second host stretch aggregates again and reshapes the second bias; the third region leaves the
  logarithm of the softmax of the biased aggregate.  Each region's array is read by the whole-array function its blocks
  restrict, each stretch by the composed term of its operations, and every argument array is read back to the launch memory.
-/
import proofs.«112370_j36687610642609_1_alg».proof.Proof.KernelRun
import proofs.«112370_j36687610642609_1_alg».proof.Proof.KernelLayer0
import proofs.«112370_j36687610642609_1_alg».proof.Proof.KernelLayer1
import proofs.«112370_j36687610642609_1_alg».proof.Proof.KernelLayer2
import Idealize.ShloMosaic.Lib.StableHlo.Run

noncomputable section

namespace Cert.KernelIdeal.Hand

open Cert.KernelIdeal Cert.KernelIdeal.Gen Cert.KernelIdeal.Layers
open Idealize.ShloMosaic Idealize.ShloMosaic.TcCoe Idealize.SL.Sem Idealize.ShloMosaic.StableHlo

/-! ## The two host stretches read back, from any contents -/

section Stretches

variable {F : FTy → Type} [FloatOps F]

/-- The sparse aggregation of a [100000, 128] array: row `col e` (wrapped when negative), scaled by `val e`, added
    into row `row e` of zeros, over the edges `e`. -/
def spmm128 (h : (⟨S100000x128, .f32⟩ : BufTy).Contents (Elt F)) (row col : (⟨S1600000, .i32⟩ : BufTy).Contents (Elt F)) (val : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same aggregation of a [100000, 47] array. -/
def spmm47 (h : (⟨S100000x47, .f32⟩ : BufTy).Contents (Elt F)) (row col : (⟨S1600000, .i32⟩ : BufTy).Contents (Elt F)) (val : (⟨S1600000, .f32⟩ : BufTy).Contents (Elt F)) : (⟨S100000x47, .f32⟩ : BufTy).Contents (Elt F) :=
  Host.scatterAdd scatter_S100000x47_S1600000x1_S1600000x47_1_0_0_1
    (broadcastInDim S100000x47 ![] bcast_S_S100000x47 (constant S_ .f32 0x00000000#32))
    (broadcastInDim S1600000x1 ![0] bcast_S1600000_S1600000x1_0 row)
    (mulf (broadcastInDim S1600000x47 ![0, 1] bcast_S1600000x1_S1600000x47_0_1 (broadcastInDim S1600000x1 ![0] bcast_S1600000_S1600000x1_0 val))
      (Host.gather gather_S100000x47_S1600000x1_S1600000x47_1_0_n_n_0_1_147 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

attribute [local irreducible] Host.gather Host.scatterAdd

variable (W : Valuation τ sig (Elt F))

theorem after1_v13 : after hostOps1 W (Proc.devRef .tc main_v13)
    = spmm128 (W (Proc.devRef .tc main_v0)) (W (Proc.devRef .tc main_arg1)) (W (Proc.devRef .tc main_arg2)) (W (Proc.devRef .tc main_arg3)) := by
  after_results_simp <;> rfl
theorem after1_v14 : after hostOps1 W (Proc.devRef .tc main_v14) = shapeCast S1x128 (W (Proc.devRef .tc main_arg5)) shapeCasts_S128_S1x128 := by
  after_results_simp <;> rfl
theorem after1_arg1 : after hostOps1 W (Proc.devRef .tc main_arg1) = W (Proc.devRef .tc main_arg1) := by after_results_simp <;> rfl
theorem after1_arg2 : after hostOps1 W (Proc.devRef .tc main_arg2) = W (Proc.devRef .tc main_arg2) := by after_results_simp <;> rfl
theorem after1_arg3 : after hostOps1 W (Proc.devRef .tc main_arg3) = W (Proc.devRef .tc main_arg3) := by after_results_simp <;> rfl
theorem after1_arg6 : after hostOps1 W (Proc.devRef .tc main_arg6) = W (Proc.devRef .tc main_arg6) := by after_results_simp <;> rfl
theorem after1_arg7 : after hostOps1 W (Proc.devRef .tc main_arg7) = W (Proc.devRef .tc main_arg7) := by after_results_simp <;> rfl

theorem after2_v28 : after hostOps2 W (Proc.devRef .tc main_v28)
    = spmm47 (W (Proc.devRef .tc main_v15)) (W (Proc.devRef .tc main_arg1)) (W (Proc.devRef .tc main_arg2)) (W (Proc.devRef .tc main_arg3)) := by
  after_results_simp <;> rfl
theorem after2_v29 : after hostOps2 W (Proc.devRef .tc main_v29) = shapeCast S1x47 (W (Proc.devRef .tc main_arg7)) shapeCasts_S47_S1x47 := by
  after_results_simp <;> rfl

end Stretches

/-! ## The chain of boundaries, at the ideal instance -/

variable (m : (ℓ : Loc nD τ sig) → Buf (Elt Ideal) ℓ) (ρ : Dev nD → PrngReg)

/-- The returned array as one function of the eight argument arrays. -/
def result (x : (⟨S100000x256, .f32⟩ : BufTy).Contents (Elt Ideal)) (row col : (⟨S1600000, .i32⟩ : BufTy).Contents (Elt Ideal))
    (val : (⟨S1600000, .f32⟩ : BufTy).Contents (Elt Ideal)) (w1 : (⟨S256x128, .f32⟩ : BufTy).Contents (Elt Ideal))
    (b1 : (⟨S128, .f32⟩ : BufTy).Contents (Elt Ideal)) (w2 : (⟨S128x47, .f32⟩ : BufTy).Contents (Elt Ideal))
    (b2 : (⟨S47, .f32⟩ : BufTy).Contents (Elt Ideal)) : (⟨S100000x47, .f32⟩ : BufTy).Contents (Elt Ideal) :=
  G2 (spmm47 (G1 (spmm128 (G0 x w1) row col val) (shapeCast S1x128 b1 shapeCasts_S128_S1x128) w2) row col val)
    (shapeCast S1x47 b2 shapeCasts_S47_S1x47)

/-- An argument no window of the first region stages is, at that region's exit, as launched. -/
theorem W1_arg (c : Dev nD) (b : Ref sig .tc) (hb : ∀ w, Pipeline.arrRef spec0 w ≠ b) :
    W1 m ρ c (Proc.devRef .tc b) = m ((c : Thread nD τ).loc b) :=
  W1_of_ne m ρ c b hb

/-- The first region's output at its exit: the product of the launched features and first weights. -/
theorem W1_v0 (c : Dev nD) : W1 m ρ c (Proc.devRef .tc main_v0)
    = G0 (m ((c : Thread nD τ).loc main_arg0)) (m ((c : Thread nD τ).loc main_arg4)) :=
  (W1_arr m ρ c 2).trans (final0 (V0 m ρ) c)

/-- The second region's entry contents at its three operands. -/
theorem V2_v13 (c : Dev nD) : V2 m ρ c main_v13
    = spmm128 (G0 (m ((c : Thread nD τ).loc main_arg0)) (m ((c : Thread nD τ).loc main_arg4)))
        (m ((c : Thread nD τ).loc main_arg1)) (m ((c : Thread nD τ).loc main_arg2)) (m ((c : Thread nD τ).loc main_arg3)) := by
  show after hostOps1 (W1 m ρ c) (Proc.devRef .tc main_v13) = _
  rw [after1_v13, W1_v0, W1_arg m ρ c main_arg1 (by decide), W1_arg m ρ c main_arg2 (by decide), W1_arg m ρ c main_arg3 (by decide)]
theorem V2_v14 (c : Dev nD) : V2 m ρ c main_v14 = shapeCast S1x128 (m ((c : Thread nD τ).loc main_arg5)) shapeCasts_S128_S1x128 := by
  show after hostOps1 (W1 m ρ c) (Proc.devRef .tc main_v14) = _
  rw [after1_v14, W1_arg m ρ c main_arg5 (by decide)]
theorem V2_arg6 (c : Dev nD) : V2 m ρ c main_arg6 = m ((c : Thread nD τ).loc main_arg6) := by
  show after hostOps1 (W1 m ρ c) (Proc.devRef .tc main_arg6) = _
  rw [after1_arg6, W1_arg m ρ c main_arg6 (by decide)]

/-- An argument the second region does not write is, at that region's exit, what the first stretch left. -/
theorem W3_arg1 (c : Dev nD) : W3 m ρ c (Proc.devRef .tc main_arg1) = m ((c : Thread nD τ).loc main_arg1) := by
  rw [W3_of_ne m ρ c main_arg1 (by decide)]
  show after hostOps1 (W1 m ρ c) (Proc.devRef .tc main_arg1) = _
  rw [after1_arg1, W1_arg m ρ c main_arg1 (by decide)]
theorem W3_arg2 (c : Dev nD) : W3 m ρ c (Proc.devRef .tc main_arg2) = m ((c : Thread nD τ).loc main_arg2) := by
  rw [W3_of_ne m ρ c main_arg2 (by decide)]
  show after hostOps1 (W1 m ρ c) (Proc.devRef .tc main_arg2) = _
  rw [after1_arg2, W1_arg m ρ c main_arg2 (by decide)]
theorem W3_arg3 (c : Dev nD) : W3 m ρ c (Proc.devRef .tc main_arg3) = m ((c : Thread nD τ).loc main_arg3) := by
  rw [W3_of_ne m ρ c main_arg3 (by decide)]
  show after hostOps1 (W1 m ρ c) (Proc.devRef .tc main_arg3) = _
  rw [after1_arg3, W1_arg m ρ c main_arg3 (by decide)]
theorem W3_arg7 (c : Dev nD) : W3 m ρ c (Proc.devRef .tc main_arg7) = m ((c : Thread nD τ).loc main_arg7) := by
  rw [W3_of_ne m ρ c main_arg7 (by decide)]
  show after hostOps1 (W1 m ρ c) (Proc.devRef .tc main_arg7) = _
  rw [after1_arg7, W1_arg m ρ c main_arg7 (by decide)]

/-- The second region's output at its exit. -/
theorem W3_v15 (c : Dev nD) : W3 m ρ c (Proc.devRef .tc main_v15)
    = G1 (spmm128 (G0 (m ((c : Thread nD τ).loc main_arg0)) (m ((c : Thread nD τ).loc main_arg4)))
          (m ((c : Thread nD τ).loc main_arg1)) (m ((c : Thread nD τ).loc main_arg2)) (m ((c : Thread nD τ).loc main_arg3)))
        (shapeCast S1x128 (m ((c : Thread nD τ).loc main_arg5)) shapeCasts_S128_S1x128) (m ((c : Thread nD τ).loc main_arg6)) := by
  rw [← V2_v13 m ρ c, ← V2_v14 m ρ c, ← V2_arg6 m ρ c]
  exact (W3_arr m ρ c 3).trans (final1 (V2 m ρ) c)

/-- The third region's entry contents at its two operands. -/
theorem V4_v28 (c : Dev nD) : V4 m ρ c main_v28
    = spmm47 (G1 (spmm128 (G0 (m ((c : Thread nD τ).loc main_arg0)) (m ((c : Thread nD τ).loc main_arg4)))
          (m ((c : Thread nD τ).loc main_arg1)) (m ((c : Thread nD τ).loc main_arg2)) (m ((c : Thread nD τ).loc main_arg3)))
        (shapeCast S1x128 (m ((c : Thread nD τ).loc main_arg5)) shapeCasts_S128_S1x128) (m ((c : Thread nD τ).loc main_arg6)))
      (m ((c : Thread nD τ).loc main_arg1)) (m ((c : Thread nD τ).loc main_arg2)) (m ((c : Thread nD τ).loc main_arg3)) := by
  show after hostOps2 (W3 m ρ c) (Proc.devRef .tc main_v28) = _
  rw [after2_v28, W3_v15, W3_arg1, W3_arg2, W3_arg3]
theorem V4_v29 (c : Dev nD) : V4 m ρ c main_v29 = shapeCast S1x47 (m ((c : Thread nD τ).loc main_arg7)) shapeCasts_S47_S1x47 := by
  show after hostOps2 (W3 m ρ c) (Proc.devRef .tc main_v29) = _
  rw [after2_v29, W3_arg7]

/-- The third region's output array after its last write-back is `result` of the launched arguments. -/
theorem out_eq (c : Dev nD) : (dat2 (V4 m ρ) c).arrAt 2 cfg2.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold result
  rw [← V4_v28 m ρ c, ← V4_v29 m ρ c]
  exact final2 (V4 m ρ) c

/-- The run, read: the returned array at `result` of the launched arguments, the arguments unchanged. -/
theorem value_run : θ_run defs (onTc (τ := τ) (main (F := Ideal))) ⟨m, fun _ => 0, ρ⟩ (fun r => ∀ c : Dev nD,
      r.2.mem ((c.tc : Thread nD τ).loc main_v30) = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (out_eq m ρ c), (h c).2⟩) (run (F := Ideal) m ρ)

end Cert.KernelIdeal.Hand

end
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.Bridge.lean ====
/-
  The two returned arrays are one function of the arguments, on the extended reals.

  Layer by layer.  The first region's product and the host's `dot_general` are the same sums.  The sparse aggregation is
  the same composed term on both sides, so it carries equal arrays to equal arrays without being opened.  The second
  region's rectified dense layer and the host's `dot_general` of the rectified, biased aggregate are the same sums, the
  kernel's bias row (the vector reshaped) read at (0, q) being the vector's entry q.  The last region's log-softmax and
  the host's are the same row formula.  No law beyond these readings is needed, so the finiteness of the inputs is never used.
-/
import proofs.«112370_j36687610642609_1_alg».proof.Proof.RefOps
import proofs.«112370_j36687610642609_1_alg».proof.Proof.KernelValue
import proofs.«112370_j36687610642609_1_alg».proof.Proof.LibBiasReluDense
import proofs.«112370_j36687610642609_1_alg».proof.Proof.LibRowLogSoftmax
import proofs.«112370_j36687610642609_1_alg».proof.Proof.LibRowReshape
import proofs.«112370_j36687610642609_1_alg».proof.Proof.LibMatrixLayout

noncomputable section

namespace Cert.Bridge

open Idealize.ShloMosaic Idealize.ShloMosaic.ValueIdx
open Cert.LibBiasReluDense Cert.LibRowLogSoftmax

abbrev A256 := FVec Ideal Cert.ReferenceIdeal.S100000x256 .f32
abbrev A128 := FVec Ideal Cert.ReferenceIdeal.S100000x128 .f32
abbrev A47 := FVec Ideal Cert.ReferenceIdeal.S100000x47 .f32
abbrev EI := (⟨Cert.ReferenceIdeal.S1600000, .i32⟩ : BufTy).Contents (Elt Ideal)
abbrev EF := FVec Ideal Cert.ReferenceIdeal.S1600000 .f32
abbrev W1T := FVec Ideal Cert.ReferenceIdeal.S256x128 .f32
abbrev B1T := FVec Ideal Cert.ReferenceIdeal.S128 .f32
abbrev W2T := FVec Ideal Cert.ReferenceIdeal.S128x47 .f32
abbrev B2T := FVec Ideal Cert.ReferenceIdeal.S47 .f32

/-- The aggregation is one term on both sides. -/
theorem spmm128_eq (h : A128) (row col : EI) (val : EF) :
    Cert.KernelIdeal.Hand.spmm128 (F := Ideal) h row col val = Cert.ReferenceIdeal.Hand.spmm128 (F := Ideal) h row col val := rfl
theorem spmm47_eq (h : A47) (row col : EI) (val : EF) :
    Cert.KernelIdeal.Hand.spmm47 (F := Ideal) h row col val = Cert.ReferenceIdeal.Hand.spmm47 (F := Ideal) h row col val := rfl

/-- The first layer's product. -/
theorem dense_eq (x : A256) (w1 : W1T) :
    Cert.KernelIdeal.Layers.G0 x w1 = Host.dotGeneral (F := Ideal) Cert.ReferenceIdeal.dot_S100000x256_S256x128_S100000x128_1_0_0_1_n_n none x w1 := by
  funext i
  obtain ⟨r, j, rfl⟩ : ∃ (r : Fin 100000) (j : Fin 128), i = ix2 r j := ⟨i 0, i 1, eq_ix2 i⟩
  exact (host_dense_apply Cert.ReferenceIdeal.dot_S100000x256_S256x128_S100000x128_1_0_0_1_n_n rfl x w1 r j).symm

/-- The second layer's rectified dense product. -/
theorem hidden_eq (h : A128) (b1 : B1T) (w2 : W2T) :
    Cert.KernelIdeal.Layers.G1 h (shapeCast Cert.KernelIdeal.S1x128 b1 Cert.KernelIdeal.Gen.shapeCasts_S128_S1x128) w2
      = Host.dotGeneral (F := Ideal) (φ₁ := .f32) (φ₂ := .f32) Cert.ReferenceIdeal.dot_S100000x128_S128x47_S100000x47_1_0_0_1_n_n none
          (Cert.ReferenceIdeal.Hand.rectified (F := Ideal) (addf h (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 b1)))) w2 := by
  funext i
  obtain ⟨r, j, rfl⟩ : ∃ (r : Fin 100000) (j : Fin 47), i = ix2 r j := ⟨i 0, i 1, eq_ix2 i⟩
  unfold Cert.ReferenceIdeal.Hand.rectified
  refine Eq.trans ?_ (host_reluDense_apply Cert.ReferenceIdeal.dot_S100000x128_S128x47_S100000x47_1_0_0_1_n_n rfl h b1 w2
    Cert.ReferenceIdeal.Gen.bcast_S128_S1x128_1 Cert.ReferenceIdeal.Gen.bcast_S1x128_S100000x128_0_1 Cert.ReferenceIdeal.Gen.bcast_S_S100000x128 r j).symm
  show reluDenseE h (fun q => shapeCast Cert.KernelIdeal.S1x128 b1 Cert.KernelIdeal.Gen.shapeCasts_S128_S1x128 (ix2 (0 : Fin 1) q)) w2 r j
    = reluDenseE h (fun q => b1 (ix1 q)) w2 r j
  refine congrArg (fun β => reluDenseE h β w2 r j) (funext fun q => ?_)
  exact Cert.LibRowReshape.shapeCast_b_1b_apply b1 _ 0 q

attribute [local irreducible] Host.reduce Host.reduceAdd in
/-- The log-softmax of the biased aggregate. -/
theorem softmax_eq (s : A47) (b2 : B2T) :
    Cert.KernelIdeal.Layers.G2 s (shapeCast Cert.KernelIdeal.S1x47 b2 Cert.KernelIdeal.Gen.shapeCasts_S47_S1x47)
      = Cert.ReferenceIdeal.Hand.logSoftmaxHost (F := Ideal) (addf s (broadcastInDim Cert.ReferenceIdeal.S100000x47 ![0, 1] Cert.ReferenceIdeal.Gen.bcast_S1x47_S100000x47_0_1
          (broadcastInDim Cert.ReferenceIdeal.S1x47 ![1] Cert.ReferenceIdeal.Gen.bcast_S47_S1x47_1 b2))) := by
  funext i
  obtain ⟨r, j, rfl⟩ : ∃ (r : Fin 100000) (j : Fin 47), i = ix2 r j := ⟨i 0, i 1, eq_ix2 i⟩
  unfold Cert.ReferenceIdeal.Hand.logSoftmaxHost Cert.ReferenceIdeal.Hand.rowMaxHost
  have hRed : Shape.Reduces (⟨2, ![100000, 47]⟩ : Shape) [1] ⟨1, ![100000]⟩ := by decide
  have hR := host_apply (addf s (broadcastInDim Cert.ReferenceIdeal.S100000x47 ![0, 1] Cert.ReferenceIdeal.Gen.bcast_S1x47_S100000x47_0_1
      (broadcastInDim Cert.ReferenceIdeal.S1x47 ![1] Cert.ReferenceIdeal.Gen.bcast_S47_S1x47_1 b2)))
    Cert.ReferenceIdeal.Gen.reducesTo_S100000x47_S100000_d1 hRed Cert.ReferenceIdeal.Gen.h_S_ Cert.ReferenceIdeal.Gen.bcast_S_S100000
    Cert.ReferenceIdeal.Gen.bcast_S100000_S100000x1_0 Cert.ReferenceIdeal.Gen.bcast_S100000x1_S100000x47_0_1 r j
  refine Eq.trans ?_ hR.symm
  show logSoftmaxRow (fun k => s (ix2 r k) + shapeCast Cert.KernelIdeal.S1x47 b2 Cert.KernelIdeal.Gen.shapeCasts_S47_S1x47 (ix2 (0 : Fin 1) k)) j = _
  refine congrArg (fun f => logSoftmaxRow f j) (funext fun k => ?_)
  rw [addf_apply, Cert.LibMatrixLayout.bcast_1b_ab_apply, Cert.LibMatrixLayout.bcast_b_1b_apply]
  have e : shapeCast Cert.KernelIdeal.S1x47 b2 Cert.KernelIdeal.Gen.shapeCasts_S47_S1x47 (ix2 (0 : Fin 1) k) = b2 (ix1 k) :=
    Cert.LibRowReshape.shapeCast_b_1b_apply b2 _ 0 k
  rw [e]

/-- The reference's returned array is the kernel's, as functions of the eight arguments. -/
theorem result_eq (x : A256) (row col : EI) (val : EF) (w1 : W1T) (b1 : B1T) (w2 : W2T) (b2 : B2T) :
    Cert.ReferenceIdeal.Hand.result (F := Ideal) x row col val w1 b1 w2 b2 = Cert.KernelIdeal.Hand.result x row col val w1 b1 w2 b2 := by
  unfold Cert.ReferenceIdeal.Hand.result Cert.KernelIdeal.Hand.result Cert.ReferenceIdeal.Hand.layer2 Cert.ReferenceIdeal.Hand.layer1
  rw [softmax_eq, spmm47_eq, hidden_eq, spmm128_eq, dense_eq]

end Cert.Bridge

end
-- ==== Proof.lean ====
/- The proof of `Cert.Claim`: a two-layer graph convolution whose three dense stages are kernels against the same
   network written with host operations, equal as extended reals.

   Both programs compute, from features x, edges (row, col, val), weights w1, w2 and biases b1, b2,
   log_softmax (A (relu (A (x·w1) + b1) · w2) + b2) along the rows, where A aggregates a node array over the edges: row
   `col e` scaled by `val e` is added into row `row e`.  The kernel program runs the products, the bias-and-ReLU and the
   bias-and-log-softmax as three row-blocked kernels and leaves the aggregation to the same host operations the reference
   uses; at the ideal instance a narrowing of a float format is the identity and a product accumulated from zero is the
   plain sum, so every stage is the reference's stage, index by index (Proof/Bridge.lean).  The frames are the
   generated ones (the reference's is its run with the result dropped), the idealization rewrote nothing, and the
   value claim sets the kernel's run (Proof/KernelValue.lean) beside the reference's (Proof/RefRun.lean). -/
import proofs.«112370_j36687610642609_1_alg».proof.Defs
import proofs.«112370_j36687610642609_1_alg».proof.Proof.Gen.Kernel
import proofs.«112370_j36687610642609_1_alg».proof.Proof.Gen.Kernel.Skeleton
import proofs.«112370_j36687610642609_1_alg».proof.Proof.Gen.Kernel.Launch
import proofs.«112370_j36687610642609_1_alg».proof.Proof.Gen.Kernel.Points
import proofs.«112370_j36687610642609_1_alg».proof.Proof.Gen.Kernel.Frame
import proofs.«112370_j36687610642609_1_alg».proof.Proof.Gen.KernelIdeal
import proofs.«112370_j36687610642609_1_alg».proof.Proof.Gen.KernelIdeal.Skeleton
import proofs.«112370_j36687610642609_1_alg».proof.Proof.Gen.KernelIdeal.Launch
import proofs.«112370_j36687610642609_1_alg».proof.Proof.Gen.KernelIdeal.Points
import proofs.«112370_j36687610642609_1_alg».proof.Proof.Gen.KernelIdeal.Frame
import proofs.«112370_j36687610642609_1_alg».proof.Proof.Gen.ReferenceIdeal
import proofs.«112370_j36687610642609_1_alg».proof.Proof.Gen.Pre_finite_inputs
import proofs.«112370_j36687610642609_1_alg».proof.Proof.RefRun
import proofs.«112370_j36687610642609_1_alg».proof.Proof.KernelValue
import proofs.«112370_j36687610642609_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the returned array dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories agreeing on the eight arguments both programs run, and the two returned arrays are the same
    function of those arguments. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7⟩ := hagree c
  rw [a0, a1, a2, a3, a4, a5, a6, a7]
  exact Cert.Bridge.result_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
